-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x64 : Shape := ⟨3, ![16, 4096, 64]⟩
abbrev S4096x4096 : Shape := ⟨2, ![4096, 4096]⟩
abbrev S_ : Shape := ⟨0, ![]⟩

class Facts : Prop where
  bcast_S_S16x4096x64 : S_.BroadcastsInDim S16x4096x64 (![] : Fin 0 → Fin S16x4096x64.rank)
  reducesTo_S16x4096x64_S_d0_1_2 : S16x4096x64.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  main_v18

def fn {F : FTy → Type} [FloatOps F] (main_arg0 : FVec F S16x4096x64 .f32) (main_arg1 : FVec F S16x4096x64 .f32) (main_arg2 : FVec F S16x4096x64 .f32) (main_arg3 : FVec F S4096x4096 .f32) : IVec S_ 1 :=
  let main_v0 : FVec F S16x4096x64 .f32 := Host.absf main_arg0
  let main_cst : FVec F S_ .f32 := constant S_ .f32 0x7F800000#32
  let main_v1 : FVec F S16x4096x64 .f32 := broadcastInDim S16x4096x64 ![] bcast_S_S16x4096x64 main_cst
  let main_v2 : IVec S16x4096x64 1 := cmpf .olt main_v0 main_v1
  let main_c : IVec S_ 1 := constantI S_ 1 1#1
  let main_v3 : IVec S_ 1 := (fun x v => Host.reduce IntOp.andi x v reducesTo_S16x4096x64_S_d0_1_2 h_S_) main_v2 main_c
  let main_v4 : FVec F S16x4096x64 .f32 := Host.absf main_arg1
  let main_cst_0 : FVec F S_ .f32 := constant S_ .f32 0x7F800000#32
  let main_v5 : FVec F S16x4096x64 .f32 := broadcastInDim S16x4096x64 ![] bcast_S_S16x4096x64 main_cst_0
  let main_v6 : IVec S16x4096x64 1 := cmpf .olt main_v4 main_v5
  let main_c_1 : IVec S_ 1 := constantI S_ 1 1#1
  let main_v7 : IVec S_ 1 := (fun x v => Host.reduce IntOp.andi x v reducesTo_S16x4096x64_S_d0_1_2 h_S_) main_v6 main_c_1
  let main_v8 : IVec S_ 1 := andi main_v3 main_v7
  let main_v9 : FVec F S16x4096x64 .f32 := Host.absf main_arg2
  let main_cst_2 : FVec F S_ .f32 := constant S_ .f32 0x7F800000#32
  let main_v10 : FVec F S16x4096x64 .f32 := broadcastInDim S16x4096x64 ![] bcast_S_S16x4096x64 main_cst_2
  let main_v11 : IVec S16x4096x64 1 := cmpf .olt main_v9 main_v10
  let main_c_3 : IVec S_ 1 := constantI S_ 1 1#1
  let main_v12 : IVec S_ 1 := (fun x v => Host.reduce IntOp.andi x v reducesTo_S16x4096x64_S_d0_1_2 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_v13 main_v16
-- ==== Kernel.lean ====
abbrev S16x4096x64 : Shape := ⟨3, ![16, 4096, 64]⟩
abbrev S4096x4096 : Shape := ⟨2, ![4096, 4096]⟩
abbrev S1x512x64 : Shape := ⟨3, ![1, 512, 64]⟩
abbrev S1x4096x64 : Shape := ⟨3, ![1, 4096, 64]⟩
abbrev S512x4096 : Shape := ⟨2, ![512, 4096]⟩
abbrev S512x64 : Shape := ⟨2, ![512, 64]⟩
abbrev S4096x64 : Shape := ⟨2, ![4096, 64]⟩
abbrev S64x4096 : Shape := ⟨2, ![64, 4096]⟩
abbrev S512 : Shape := ⟨1, ![512]⟩
abbrev S512x1 : Shape := ⟨2, ![512, 1]⟩

abbrev nBuf : Space → Nat
  | .hbm => 7
  | .vmem => 9
  | .smem => 0
  | _ => 0

abbrev bufTy : (tb : Table) → Fin (tcTables nBuf tb) → BufTy
  | .hbm, ⟨0, _⟩ => ⟨S16x4096x64, .f32⟩
  | .hbm, ⟨1, _⟩ => ⟨S16x4096x64, .f32⟩
  | .hbm, ⟨2, _⟩ => ⟨S16x4096x64, .f32⟩
  | .hbm, ⟨3, _⟩ => ⟨S4096x4096, .f32⟩
  | .hbm, ⟨4, _⟩ => ⟨S16x4096x64, .bf16⟩
  | .hbm, ⟨5, _⟩ => ⟨S16x4096x64, .bf16⟩
  | .hbm, ⟨6, _⟩ => ⟨S16x4096x64, .f32⟩
  | .local _ .vmem, ⟨0, _⟩ => ⟨S1x512x64, .f32⟩
  | .local _ .vmem, ⟨1, _⟩ => ⟨S1x512x64, .f32⟩
  | .local _ .vmem, ⟨2, _⟩ => ⟨S1x4096x64, .bf16⟩
  | .local _ .vmem, ⟨3, _⟩ => ⟨S1x4096x64, .bf16⟩
  | .local _ .vmem, ⟨4, _⟩ => ⟨S1x4096x64, .bf16⟩
  | .local _ .vmem, ⟨5, _⟩ => ⟨S1x4096x64, .bf16⟩
  | .local _ .vmem, ⟨6, _⟩ => ⟨S512x4096, .f32⟩
  | .local _ .vmem, ⟨7, _⟩ => ⟨S1x512x64, .f32⟩
  | .local _ .vmem, ⟨8, _⟩ => ⟨S1x512x64, .f32⟩
  | _, _ => ⟨S16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S512x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  transposes_S4096x64_p1_0_S64x4096 : S4096x64.Transposes [1, 0] S64x4096
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  broadcasts_S512x1_S512x4096 : S512x1.Broadcasts S512x4096
  shapeCasts_S512x64_S1x512x64 : S512x64.ShapeCasts S1x512x64
  dot_S512x64_S64x4096_S512x4096_1_0_0_1_n_n_wf : DotDims.WF S512x64 S64x4096 S512x4096 [1] [0] [0] [1] [] []
  dot_S512x4096_S4096x64_S512x64_1_0_0_1_n_n_wf : DotDims.WF S512x4096 S4096x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S16x4096x64.size a
  hwx0_0 : ∀ i : grid0.Coords, EltTy.bits .f32 = 32 ∨ (Rect.block (s := S16x4096x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S16x4096x64.size a
  hwx0_1 : ∀ i : grid0.Coords, EltTy.bits .bf16 = 32 ∨ (Rect.block (s := S16x4096x64) S1x4096x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x64.size a ≤ S16x4096x64.size a
  hwx0_2 : ∀ i : grid0.Coords, EltTy.bits .bf16 = 32 ∨ (Rect.block (s := S16x4096x64) S1x4096x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S4096x4096.size a
  hwx0_3 : ∀ i : grid0.Coords, EltTy.bits .f32 = 32 ∨ (Rect.block (s := S4096x4096) S512x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S16x4096x64.size a
  hwx0_4 : ∀ i : grid0.Coords, EltTy.bits .f32 = 32 ∨ (Rect.block (s := S16x4096x64) S1x512x64.size (cc0_transform_4 i) (hinb0_4 i)).WholeWords (EltTy.packing .f32)

variable [Facts₀]

def dot_S512x64_S64x4096_S512x4096_1_0_0_1_n_n : DotDims S512x64 S64x4096 S512x4096 where
  lhsContracting := [1]
  rhsContracting := [0]
  lhsNonContracting := [0]
  rhsNonContracting := [1]
  lhsBatch := []
  rhsBatch := []
  wf := dot_S512x64_S64x4096_S512x4096_1_0_0_1_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x4096x64 : Shape := ⟨3, ![16, 4096, 64]⟩
abbrev S4096x4096 : Shape := ⟨2, ![4096, 4096]⟩
abbrev S_ : Shape := ⟨0, ![]⟩
abbrev S16x4096x4096 : Shape := ⟨3, ![16, 4096, 4096]⟩
abbrev S1x4096x4096 : Shape := ⟨3, ![1, 4096, 4096]⟩
abbrev S16x4096 : Shape := ⟨2, ![16, 4096]⟩
abbrev S16x4096x1 : Shape := ⟨3, ![16, 4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S16x4096x64, .f32⟩
  | .hbm, ⟨1, _⟩ => ⟨S16x4096x64, .f32⟩
  | .hbm, ⟨2, _⟩ => ⟨S16x4096x64, .f32⟩
  | .hbm, ⟨3, _⟩ => ⟨S4096x4096, .f32⟩
  | .hbm, ⟨4, _⟩ => ⟨S_, .f32⟩
  | .hbm, ⟨5, _⟩ => ⟨S16x4096x64, .f32⟩
  | .hbm, ⟨6, _⟩ => ⟨S16x4096x64, .f32⟩
  | .hbm, ⟨7, _⟩ => ⟨S16x4096x4096, .f32⟩
  | .hbm, ⟨8, _⟩ => ⟨S1x4096x4096, .f32⟩
  | .hbm, ⟨9, _⟩ => ⟨S16x4096x4096, .f32⟩
  | .hbm, ⟨10, _⟩ => ⟨S16x4096x4096, .f32⟩
  | .hbm, ⟨11, _⟩ => ⟨S_, .f32⟩
  | .hbm, ⟨12, _⟩ => ⟨S16x4096, .f32⟩
  | .hbm, ⟨13, _⟩ => ⟨S_, .f32⟩
  | .hbm, ⟨14, _⟩ => ⟨S16x4096, .f32⟩
  | .hbm, ⟨15, _⟩ => ⟨S16x4096, .f32⟩
  | .hbm, ⟨16, _⟩ => ⟨S16x4096x1, .f32⟩
  | .hbm, ⟨17, _⟩ => ⟨S16x4096x4096, .f32⟩
  | .hbm, ⟨18, _⟩ => ⟨S16x4096x4096, .f32⟩
  | .hbm, ⟨19, _⟩ => ⟨S16x4096x4096, .f32⟩
  | .hbm, ⟨20, _⟩ => ⟨S_, .f32⟩
  | .hbm, ⟨21, _⟩ => ⟨S16x4096, .f32⟩
  | .hbm, ⟨22, _⟩ => ⟨S16x4096x1, .f32⟩
  | .hbm, ⟨23, _⟩ => ⟨S16x4096x4096, .f32⟩
  | .hbm, ⟨24, _⟩ => ⟨S16x4096x4096, .f32⟩
  | .hbm, ⟨25, _⟩ => ⟨S16x4096x64, .f32⟩
  | _, _ => ⟨S16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S16x4096x64 : S_.BroadcastsInDim S16x4096x64 (![] : Fin 0 → Fin S16x4096x64.rank)
  bcast_S4096x4096_S1x4096x4096_1_2 : S4096x4096.BroadcastsInDim S1x4096x4096 (![1, 2] : Fin 2 → Fin S1x4096x4096.rank)
  bcast_S1x4096x4096_S16x4096x4096_0_1_2 : S1x4096x4096.BroadcastsInDim S16x4096x4096 (![0, 1, 2] : Fin 3 → Fin S16x4096x4096.rank)
  reducesTo_S16x4096x4096_S16x4096_d2 : S16x4096x4096.ReducesTo [2] S16x4096
  h_S_ : 0 < S_.numel
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  bcast_S16x4096x1_S16x4096x4096_0_1_2 : S16x4096x1.BroadcastsInDim S16x4096x4096 (![0, 1, 2] : Fin 3 → Fin S16x4096x4096.rank)
  dot_S16x4096x64_S16x4096x64_S16x4096x4096_2_2_1_1_0_0_wf : DotDims.WF S16x4096x64 S16x4096x64 S16x4096x4096 [2] [2] [1] [1] [0] [0]
  dot_S16x4096x4096_S16x4096x64_S16x4096x64_2_1_1_2_0_0_wf : DotDims.WF S16x4096x4096 S16x4096x64 S16x4096x64 [2] [1] [1] [2] [0] [0]

variable [Facts₀]

def dot_S16x4096x64_S16x4096x64_S16x4096x4096_2_2_1_1_0_0 : DotDims S16x4096x64 S16x4096x64 S16x4096x4096 where
  lhsContracting := [2]
  rhsContracting := [2]
  lhsNonContracting := [1]
  rhsNonContracting := [1]
  lhsBatch := [0]
  rhsBatch := [0]
  wf := dot_S16x4096x64_S16x4096x64_S16x4096x4096_2_2_1_1_0_0_wf
def dot_S16x4096x4096_S16x4096x64_S16x4096x64_2_1_1_2_0_0 : DotDims S16x4096x4096 S16x4096x64 S16x4096x64 where
  lhsContracting := [2]
  rhsContracting := [1]
  lhsNonContracting := [1]
  rhsNonContracting := [2]
  lhsBatch := [0]
  rhsBatch := [0]
  wf := dot_S16x4096x4096_S16x4096x64_S16x4096x64_2_1_1_2_0_0_wf

class Facts : Prop extends Facts₀ where

variable [Facts]
-- ==== Proof.AttnSpec.lean ====
/-
  Masked scaled-dot-product attention over the extended reals, one query row at a time.

  For one query row `q` (a vector of `D` numbers), keys `k` (`T` rows of `D` numbers), one row `mk` of an additive mask
  (`T` numbers) and values `v` (`T` rows of `E` numbers):

    scores t  = (Σ_d (q d · c) · k t d) + mk t                  -- c the query scale
    top       = max over t of scores t                          -- a fold of max from `b`, the word of −∞
    weights t = exp (scores t − top) / Σ_u exp (scores u − top)  -- a softmax with the row maximum subtracted
    row e     = Σ_t weights t · v t e

  The result at row `s` of batch `n` depends on row `s` of the queries and of the mask only, and on all the keys and
  values of batch `n`: so the block of rows a grid point computes is a restriction of the whole array's function, and
  `attention` below states the whole array from `row`.
-/
import Idealize.ShloMosaic.Lib.ValueIdx

noncomputable section

open scoped BigOperators

namespace Cert.Attn

open Idealize.ShloMosaic Idealize.ShloMosaic.ValueIdx

variable {T D E : ℕ}

/-- The scores of one query row against every key, the mask's row added. -/
def scores (c : EReal) (q : Fin D → EReal) (k : Fin T → Fin D → EReal) (mk : Fin T → EReal) (t : Fin T) : EReal :=
  (∑ d : Fin D, q d * c * k t d) + mk t

/-- The softmax weights of a row of scores, the row's maximum (folded from `b`) subtracted before the exponential. -/
def weights (b : EReal) (s : Fin T → EReal) (t : Fin T) : EReal :=
  Ideal.div (Ideal.exp (s t - (Finset.univ : Finset (Fin T)).fold max b s))
    (∑ u : Fin T, Ideal.exp (s u - (Finset.univ : Finset (Fin T)).fold max b s))

/-- One row of the attention output: the values averaged by the row's weights. -/
def row (c b : EReal) (q : Fin D → EReal) (k : Fin T → Fin D → EReal) (mk : Fin T → EReal) (v : Fin T → Fin E → EReal)
    (e : Fin E) : EReal :=
  ∑ t : Fin T, weights b (scores c q k mk) t * v t e

/-- The query scale `1/8` (the word of `0.125`) and the word of −∞ the row maxima start from, as both programs print them. -/
abbrev scale : EReal := Ideal.ofBits .f32 0x3E000000#32
abbrev negInf : EReal := Ideal.ofBits .f32 0xFF800000#32

/-- The attention output at batch `n`, query row `s`, column `e`, from the four argument arrays. -/
def at3 (Q K V : (⟨3, ![16, 4096, 64]⟩ : Shape).Idx → EReal) (M : (⟨2, ![4096, 4096]⟩ : Shape).Idx → EReal)
    (n : Fin 16) (s : Fin 4096) (e : Fin 64) : EReal :=
  row scale negInf (fun d : Fin 64 => Q (ix3 n s d)) (fun (t : Fin 4096) (d : Fin 64) => K (ix3 n t d))
    (fun t : Fin 4096 => M (ix2 s t)) (fun (t : Fin 4096) (e : Fin 64) => V (ix3 n t e)) e

/-- The whole output array `[16, 4096, 64]` as one function of the argument arrays. -/
def attention (Q K V : (⟨3, ![16, 4096, 64]⟩ : Shape).Idx → EReal) (M : (⟨2, ![4096, 4096]⟩ : Shape).Idx → EReal) :
    (⟨3, ![16, 4096, 64]⟩ : Shape).Idx → EReal :=
  fun i => at3 Q K V M (i 0) (i 1) (i 2)

theorem attention_ix3 (Q K V : (⟨3, ![16, 4096, 64]⟩ : Shape).Idx → EReal) (M : (⟨2, ![4096, 4096]⟩ : Shape).Idx → EReal)
    (n : Fin 16) (s : Fin 4096) (e : Fin 64) : attention Q K V M (ix3 n s e) = at3 Q K V M n s e := rfl

end Cert.Attn

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.LibRowMax.lean ====
/-
  A kernel's row maxima, read at an index given by coordinates.

  `jnp.max(x, axis=1)` of a matrix `[a, b]` is, in a kernel, a lane reduction `[a, b] → [a]` by `maximumf` from an
  accumulator word. On the extended reals `max` is commutative and associative, so the order of the reduction does not
  matter: read at row `r` the result is the fold of `max`, from the value the accumulator's word denotes, over the entries
  `x (r, k)`, `k` running over the row.
-/
import Idealize.ShloMosaic.Lib.ValueIdx
import Idealize.ShloMosaic.PureOps.Ideal.Laws

noncomputable section

namespace Cert.LibRowMax

open Idealize.ShloMosaic Idealize.ShloMosaic.ValueIdx

/-- A lane reduction by `maximumf` of an `[a, b]` matrix along its rows, at the ideal values and read at row `r`: the
    fold of `max` from the accumulator's value over the row. -/
theorem multiReduction_max_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (Finset.fold _ _ · _) (funext fun k => congrArg src (funext fun ax => Fin.ext ?_))
  match ax with
  | ⟨0, _⟩ => rfl
  | ⟨1, _⟩ => rfl

end Cert.LibRowMax

end
-- ==== Proof.LibColumns.lean ====
/-
  Small layout and reduction facts read by coordinates, at the exact values: a column broadcast along rows, a vector
  kept as a column, a lane sum along rows, and a maximum along columns.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibColumns

open Idealize.ShloMosaic Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A lane sum of an `[a, b]` matrix along its rows, at the exact values and read at row `r`: the sum over the row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- A maximum of an `[a, b]` matrix along its columns, at the exact values and read at column `c`: the fold of max from
    the accumulator's value over the column. -/
theorem multiReduction_max_cols_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (c : Fin b) :
    multiReduction .maximumf [0] ⟨1, ![b]⟩ src acc h hφ hacc (ix1 c)
      = (Finset.univ : Finset (Fin a)).fold max (Ideal.ofBits φ acc) (fun k => src (ix2 k c)) := by
  refine (Ideal.multiReduction_maximumf_single src acc h hφ hacc (ix1 c)).trans ?_
  refine congrArg (Finset.fold _ _ · _) (funext fun k => congrArg src (funext fun ax => Fin.ext ?_))
  match ax with
  | ⟨0, _⟩ => rfl
  | ⟨1, _⟩ => rfl

end Cert.LibColumns

end
-- ==== Proof.KernelRow.lean ====
/-
  What one grid point of the kernel computes, row by row.

  The body takes a block of 512 query rows `x0`, the batch's keys `x1` and values `x2` (4096 rows each) and the 512
  matching rows `x3` of the mask, and stores `softmax(x0 · 1/8 · x1ᵀ + x3) · x2`. Its payload is cut here into four
  stages — the scores, the shifted exponentials, the normalised weights, the product with the values — and each stage
  is read at an index by coordinates: row `r` of the stored block is `Attn.row` of row `r` of the queries and of the mask.
  Changes of float format are the identity on the extended reals, a matrix product into a zero accumulator is the plain
  sum of products, a lane maximum is a fold of max from the accumulator's value and a lane sum is the plain sum.
-/
import proofs.«145443_j4432406249990_2_alg».proof.Proof.Gen.KernelIdeal.Skeleton
import proofs.«145443_j4432406249990_2_alg».proof.Proof.AttnSpec
import proofs.«145443_j4432406249990_2_alg».proof.Proof.LibMatmulNN
import proofs.«145443_j4432406249990_2_alg».proof.Proof.LibRowMax
import proofs.«145443_j4432406249990_2_alg».proof.Proof.LibColumns
import Idealize.ShloMosaic.Lib.ValueLayout

noncomputable section

open scoped BigOperators

namespace Cert.KernelIdeal.Row

open Cert.KernelIdeal Cert.KernelIdeal.Gen Idealize.ShloMosaic Idealize.ShloMosaic.ValueIdx

/-- The block of scores: the scaled queries times the transposed keys, plus the mask's rows. -/
def sc (x0 : Vec Ideal S1x512x64 .f32) (x1 : Vec Ideal S1x4096x64 .bf16) (x3 : Vec Ideal S512x4096 .f32) :
    FVec Ideal S512x4096 .f32 :=
  addf (matmul dot_S512x64_S64x4096_S512x4096_1_0_0_1_n_n none
      (truncf .bf16 (mulf (shapeCast S512x64 x0 shapeCasts_S1x512x64_S512x64)
        (broadcast S512x64 (Scalar.ofBits .f32 0x3E000000#32))) bitsLt_bf16_f32)
      (transpose S64x4096 [1, 0] (shapeCast S4096x64 x1 shapeCasts_S1x4096x64_S4096x64 : FVec Ideal S4096x64 .bf16)
        transposes_S4096x64_p1_0_S64x4096 : FVec Ideal S64x4096 .bf16)
      (constant S512x4096 .f32 0x00000000#32)) x3

/-- The exponentials of a block of scores, each row's maximum subtracted first. -/
def ex (s : FVec Ideal S512x4096 .f32) : FVec Ideal S512x4096 .f32 :=
  exp (subf s (broadcastTo S512x4096 (shapeCast S512x1
    (multiReduction .maximumf [1] S512 s 0xFF800000#32 reduces_S512x4096_S512 (.inl rfl) rfl)
    shapeCasts_S512_S512x1) broadcasts_S512x1_S512x4096))

/-- A block divided by its row sums. -/
def wt (p : FVec Ideal S512x4096 .f32) : FVec Ideal S512x4096 .bf16 :=
  truncf .bf16 (divf p (broadcastTo S512x4096 (shapeCast S512x1
    (multiReduction .add [1] S512 p 0x00000000#32 reduces_S512x4096_S512 (.inl rfl) rfl)
    shapeCasts_S512_S512x1) broadcasts_S512x1_S512x4096)) bitsLt_bf16_f32

/-- The weights times the values, laid out as the stored block. -/
def outBlock (w : FVec Ideal S512x4096 .bf16) (x2 : Vec Ideal S1x4096x64 .bf16) : FVec Ideal S1x512x64 .f32 :=
  shapeCast S1x512x64 (matmul dot_S512x4096_S4096x64_S512x64_1_0_0_1_n_n none w
    (shapeCast S4096x64 x2 shapeCasts_S1x4096x64_S4096x64 : FVec Ideal S4096x64 .bf16) (constant S512x64 .f32 0x00000000#32))
    shapeCasts_S512x64_S1x512x64

/-- The body's payload is the four stages composed. -/
theorem pay_eq (x0 : Vec Ideal S1x512x64 .f32) (x1 : Vec Ideal S1x4096x64 .bf16) (x3 : Vec Ideal S512x4096 .f32)
    (x2 : Vec Ideal S1x4096x64 .bf16) :
    k0_pay1 (F := Ideal) x0 x1 x3 x2 = outBlock (wt (ex (sc x0 x1 x3))) x2 := rfl

/-- The scores at `(r, t)`: query row `r` against key `t`, plus the mask at `(r, t)`. -/
theorem sc_apply (x0 : Vec Ideal S1x512x64 .f32) (x1 : Vec Ideal S1x4096x64 .bf16) (x3 : Vec Ideal S512x4096 .f32)
    (r : Fin 512) (t : Fin 4096) :
    sc x0 x1 x3 (ix2 r t)
      = Attn.scores Attn.scale (fun d : Fin 64 => x0 (ix3 (0 : Fin 1) r d)) (fun (t : Fin 4096) (d : Fin 64) => x1 (ix3 (0 : Fin 1) t d))
          (fun t : Fin 4096 => x3 (ix2 r t)) t := by
  unfold sc Attn.scores
  rw [addf_apply, LibMatmulNN.matmul_nn_apply _ rfl rfl rfl rfl rfl rfl]
  refine congrArg (· + _) (Finset.sum_congr rfl fun d _ => ?_)
  rw [truncf_apply, mulf_apply, broadcast_apply, shapeCast_1ab_ab_apply, transpose_ix2_apply, shapeCast_1ab_ab_apply]
  rfl

/-- A row's maximum kept as a column and broadcast along the row reads, anywhere in row `r`, the fold of max over the row. -/
theorem rowMax_apply (s : FVec Ideal S512x4096 .f32) (r : Fin 512) (t : Fin 4096) :
    broadcastTo S512x4096 (shapeCast S512x1
      (multiReduction .maximumf [1] S512 s 0xFF800000#32 reduces_S512x4096_S512 (.inl rfl) rfl)
      shapeCasts_S512_S512x1) broadcasts_S512x1_S512x4096 (ix2 r t)
      = (Finset.univ : Finset (Fin 4096)).fold max Attn.negInf (fun k => s (ix2 r k)) :=
  (LibColumns.broadcastTo_a1_ab_apply _ broadcasts_S512x1_S512x4096 r t).trans
    ((LibColumns.shapeCast_a_a1_apply _ shapeCasts_S512_S512x1 r 0).trans
      (LibRowMax.multiReduction_max_rows_apply s _ reduces_S512x4096_S512 (.inl rfl) rfl r))

/-- A row's sum kept as a column and broadcast along the row reads, anywhere in row `r`, the sum over the row. -/
theorem rowSum_apply (p : FVec Ideal S512x4096 .f32) (r : Fin 512) (t : Fin 4096) :
    broadcastTo S512x4096 (shapeCast S512x1
      (multiReduction .add [1] S512 p 0x00000000#32 reduces_S512x4096_S512 (.inl rfl) rfl)
      shapeCasts_S512_S512x1) broadcasts_S512x1_S512x4096 (ix2 r t)
      = ∑ k : Fin 4096, p (ix2 r k) :=
  (LibColumns.broadcastTo_a1_ab_apply _ broadcasts_S512x1_S512x4096 r t).trans
    ((LibColumns.shapeCast_a_a1_apply _ shapeCasts_S512_S512x1 r 0).trans
      (LibColumns.multiReduction_add_rows_apply p _ reduces_S512x4096_S512 (.inl rfl) rfl r))

/-- The shifted exponential at `(r, t)`. -/
theorem ex_apply (s : FVec Ideal S512x4096 .f32) (r : Fin 512) (t : Fin 4096) :
    ex s (ix2 r t)
      = Ideal.exp (s (ix2 r t) - (Finset.univ : Finset (Fin 4096)).fold max Attn.negInf (fun k => s (ix2 r k))) := by
  unfold ex
  show Ideal.exp (s (ix2 r t) - _) = _
  rw [rowMax_apply]

/-- The normalised weight at `(r, t)`: the softmax weight of row `r` of the scores. -/
theorem wt_ex_apply (s : FVec Ideal S512x4096 .f32) (r : Fin 512) (t : Fin 4096) :
    wt (ex s) (ix2 r t) = Attn.weights Attn.negInf (fun k : Fin 4096 => s (ix2 r k)) t := by
  unfold wt Attn.weights
  rw [truncf_apply, divf_apply, rowSum_apply, ex_apply]
  exact congrArg (Ideal.div _) (Finset.sum_congr rfl fun u _ => ex_apply s r u)

/-- The stored block at `(0, r, e)`: the weights of row `r` against column `e` of the values. -/
theorem outBlock_apply (w : FVec Ideal S512x4096 .bf16) (x2 : Vec Ideal S1x4096x64 .bf16) (u : Fin 1) (r : Fin 512) (e : Fin 64) :
    outBlock w x2 (ix3 u r e) = ∑ t : Fin 4096, w (ix2 r t) * x2 (ix3 (0 : Fin 1) t e) := by
  unfold outBlock
  rw [shapeCast_ab_1ab_apply, LibMatmulNN.matmul_nn_apply _ rfl rfl rfl rfl rfl rfl]
  refine Finset.sum_congr rfl fun t _ => ?_
  rw [shapeCast_1ab_ab_apply]

/-- ROW `r` OF WHAT A GRID POINT STORES is the attention row of query row `r` and mask row `r` of its blocks. -/
theorem pay_apply (x0 : Vec Ideal S1x512x64 .f32) (x1 : Vec Ideal S1x4096x64 .bf16) (x3 : Vec Ideal S512x4096 .f32)
    (x2 : Vec Ideal S1x4096x64 .bf16) (u : Fin 1) (r : Fin 512) (e : Fin 64) :
    k0_pay1 (F := Ideal) x0 x1 x3 x2 (ix3 u r e)
      = Attn.row Attn.scale Attn.negInf (fun d : Fin 64 => x0 (ix3 (0 : Fin 1) r d))
          (fun (t : Fin 4096) (d : Fin 64) => x1 (ix3 (0 : Fin 1) t d)) (fun t : Fin 4096 => x3 (ix2 r t))
          (fun (t : Fin 4096) (e : Fin 64) => x2 (ix3 (0 : Fin 1) t e)) e := by
  rw [pay_eq, outBlock_apply]
  unfold Attn.row
  refine Finset.sum_congr rfl fun t _ => ?_
  rw [wt_ex_apply]
  refine congrArg (fun f => Attn.weights Attn.negInf f t * _) (funext fun k => ?_)
  exact sc_apply x0 x1 x3 r k

end Cert.KernelIdeal.Row

end
-- ==== Proof.KernelArray.lean ====
/-
  From the blocks the grid points store to the whole output array.

  The grid has 8 × 16 points; point `(si, ni)` reads rows `[512·si, 512·si + 512)` of batch `ni` of the queries, all the
  keys and values of batch `ni` (as the host's format change left them, which on the extended reals is as the arguments
  are), rows `[512·si, 512·si + 512)` of the mask, and writes rows `[512·si, 512·si + 512)` of batch `ni` of the output.
  Row `r` of what it stores is the attention row of query row `512·si + r` of batch `ni` (KernelRow), which is what the
  whole-array function `Attn.attention` has at that place; the 128 blocks cover the output array, so after the run the
  array is `Attn.attention` of the four arguments.
-/
import proofs.«145443_j4432406249990_2_alg».proof.Proof.Gen.KernelIdeal.Value
import proofs.«145443_j4432406249990_2_alg».proof.Proof.KernelRow
import Idealize.ShloMosaic.Lib.StableHlo.Run

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the grid: the queries' block moves with the output's, the keys' and the
    values' blocks are the output's batch, the mask's block is the output's row block. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 2) = win0_4.index t (1 : Fin 3) ∧ win0_3.index t (1 : Fin 2) = 0
    ∧ win0_4.index t (0 : Fin 3) < 16 ∧ win0_4.index t (1 : Fin 3) < 8 ∧ win0_4.index t (2 : Fin 3) = 0 :=
  (by decide +kernel : ∀ t : Fin grid0.N, _)

/-- Every block of the output is some point's. -/
theorem idx_onto : ∀ (q0 : Fin 16) (q1 : Fin 8), ∃ t : Fin cfg0.N, win0_4.index t = ![q0.val, q1.val, 0] :=
  (by decide +kernel : ∀ (q0 : Fin 16) (q1 : Fin 8), ∃ t : Fin grid0.N, win0_4.index t = ![q0.val, q1.val, 0])

/-- The batch a point works on, and the array row its block row `r` is. -/
def bn (t : Fin cfg0.N) : Fin 16 := ⟨win0_4.index t (0 : Fin 3), (idx_facts t).2.2.2.2.2.2.2.2.2.2.2.1⟩
def bs (t : Fin cfg0.N) (r : Fin 512) : Fin 4096 :=
  ⟨win0_4.index t (1 : Fin 3) * 512 + r.val, by have := (idx_facts t).2.2.2.2.2.2.2.2.2.2.2.2.1; have := r.isLt; omega⟩

/-! ## What the region finds in the keys' and values' arrays -/

/-- The host's change of format of the keys is the identity on the extended reals. -/
theorem keys_entry (c : Dev nD) (i : S16x4096x64.Idx) :
    (V m c main_v0 : S16x4096x64.Idx → EReal) i = (m ((c : Thread nD τ).loc main_arg1) : S16x4096x64.Idx → EReal) i := by
  have e : (V m c main_v0 : S16x4096x64.Idx → EReal)
      = (truncf .bf16 (m ((c : Thread nD τ).loc main_arg1) : FVec Ideal S16x4096x64 .f32) bitsLt_bf16_f32 : FVec Ideal S16x4096x64 .bf16) := by
    dsimp only [V, hostOps0]; after_results
  rw [e]; rfl

/-- The host's change of format of the values is the identity on the extended reals. -/
theorem values_entry (c : Dev nD) (i : S16x4096x64.Idx) :
    (V m c main_v1 : S16x4096x64.Idx → EReal) i = (m ((c : Thread nD τ).loc main_arg2) : S16x4096x64.Idx → EReal) i := by
  have e : (V m c main_v1 : S16x4096x64.Idx → EReal)
      = (truncf .bf16 (m ((c : Thread nD τ).loc main_arg2) : FVec Ideal S16x4096x64 .f32) bitsLt_bf16_f32 : FVec Ideal S16x4096x64 .bf16) := by
    dsimp only [V, hostOps0]; after_results
  rw [e]; rfl

/-! ## The input blocks of a point, read by coordinates -/

/-- The queries' block at point `t`, at `(0, r, d)`, is the argument at `(batch, 512·si + r, d)`. -/
theorem q_read (c : Dev nD) (t : Fin cfg0.N) (r : Fin 512) (d : Fin 64) :
    iblk m c 0 t (ix3 (0 : Fin 1) r d)
      = (m ((c : Thread nD τ).loc main_arg0) : S16x4096x64.Idx → EReal) (ix3 (bn t) (bs t r) d) := by
  refine Eq.trans ?_ (congrFun (V_main_arg0 m c) _)
  show V m c main_arg0 (((cfg0.win 0).blk t).view.emb (ix3 (0 : Fin 1) r d)) = V m c main_arg0 (ix3 (bn t) (bs t r) d)
  obtain ⟨e0, e1, e2, -⟩ := idx_facts t
  refine congrArg _ (funext fun a => Fin.ext ?_)
  match a with
  | ⟨0, _⟩ => show win0_0.index t (0 : Fin 3) * 1 + 1 * 0 = win0_4.index t (0 : Fin 3); omega
  | ⟨1, _⟩ => show win0_0.index t (1 : Fin 3) * 512 + 1 * r.val = win0_4.index t (1 : Fin 3) * 512 + r.val; omega
  | ⟨2, _⟩ => show win0_0.index t (2 : Fin 3) * 64 + 1 * d.val = d.val; omega

/-- The keys' block at point `t`, at `(0, k, d)`, is the argument at `(batch, k, d)`. -/
theorem k_read (c : Dev nD) (t : Fin cfg0.N) (k : Fin 4096) (d : Fin 64) :
    iblk m c 1 t (ix3 (0 : Fin 1) k d)
      = (m ((c : Thread nD τ).loc main_arg1) : S16x4096x64.Idx → EReal) (ix3 (bn t) k d) := by
  refine Eq.trans ?_ (keys_entry m c _)
  show V m c main_v0 (((cfg0.win 1).blk t).view.emb (ix3 (0 : Fin 1) k d)) = V m c main_v0 (ix3 (bn t) k d)
  obtain ⟨-, -, -, e0, e1, e2, -⟩ := idx_facts t
  refine congrArg _ (funext fun a => Fin.ext ?_)
  match a with
  | ⟨0, _⟩ => show win0_1.index t (0 : Fin 3) * 1 + 1 * 0 = win0_4.index t (0 : Fin 3); omega
  | ⟨1, _⟩ => show win0_1.index t (1 : Fin 3) * 4096 + 1 * k.val = k.val; omega
  | ⟨2, _⟩ => show win0_1.index t (2 : Fin 3) * 64 + 1 * d.val = d.val; omega

/-- The values' block at point `t`, at `(0, k, e)`, is the argument at `(batch, k, e)`. -/
theorem v_read (c : Dev nD) (t : Fin cfg0.N) (k : Fin 4096) (e : Fin 64) :
    iblk m c 2 t (ix3 (0 : Fin 1) k e)
      = (m ((c : Thread nD τ).loc main_arg2) : S16x4096x64.Idx → EReal) (ix3 (bn t) k e) := by
  refine Eq.trans ?_ (values_entry m c _)
  show V m c main_v1 (((cfg0.win 2).blk t).view.emb (ix3 (0 : Fin 1) k e)) = V m c main_v1 (ix3 (bn t) k e)
  obtain ⟨-, -, -, -, -, -, e0, e1, e2, -⟩ := idx_facts t
  refine congrArg _ (funext fun a => Fin.ext ?_)
  match a with
  | ⟨0, _⟩ => show win0_2.index t (0 : Fin 3) * 1 + 1 * 0 = win0_4.index t (0 : Fin 3); omega
  | ⟨1, _⟩ => show win0_2.index t (1 : Fin 3) * 4096 + 1 * k.val = k.val; omega
  | ⟨2, _⟩ => show win0_2.index t (2 : Fin 3) * 64 + 1 * e.val = e.val; omega

/-- The mask's block at point `t`, at `(r, k)`, is the argument at `(512·si + r, k)`. -/
theorem mask_read (c : Dev nD) (t : Fin cfg0.N) (r : Fin 512) (k : Fin 4096) :
    iblk m c 3 t (ix2 r k)
      = (m ((c : Thread nD τ).loc main_arg3) : S4096x4096.Idx → EReal) (ix2 (bs t r) k) := by
  refine Eq.trans ?_ (congrFun (V_main_arg3 m c) _)
  show V m c main_arg3 (((cfg0.win 3).blk t).view.emb (ix2 r k)) = V m c main_arg3 (ix2 (bs t r) k)
  obtain ⟨-, -, -, -, -, -, -, -, -, e0, e1, -⟩ := idx_facts t
  refine congrArg _ (funext fun a => Fin.ext ?_)
  match a with
  | ⟨0, _⟩ => show win0_3.index t (0 : Fin 2) * 512 + 1 * r.val = win0_4.index t (1 : Fin 3) * 512 + r.val; omega
  | ⟨1, _⟩ => show win0_3.index t (1 : Fin 2) * 4096 + 1 * k.val = k.val; omega

/-! ## What a point writes back, the cover, the array after the run -/

/-- The output array as the specification states it, of the arguments as launched. -/
def result (c : Dev nD) : S16x4096x64.Idx → EReal :=
  Attn.attention (m ((c : Thread nD τ).loc main_arg0)) (m ((c : Thread nD τ).loc main_arg1))
    (m ((c : Thread nD τ).loc main_arg2)) (m ((c : Thread nD τ).loc main_arg3))

/-- WHAT POINT `t` WRITES BACK is block `t` of the attention array. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero hz3]
  simp only [View.ld_unit_zero (S := S1x512x64) hz3, View.ld_unit_zero (S := S1x4096x64) hz3, View.ld_unit_zero (S := S512x4096) hz2]
  funext j
  obtain ⟨u, r, e, rfl⟩ : ∃ (u : Fin 1) (r : Fin 512) (e : Fin 64), j = ix3 u r e := ⟨j 0, j 1, j 2, eq_ix3 j⟩
  refine (Row.pay_apply (iblk m c 0 t) (iblk m c 1 t) (iblk m c 3 t) (iblk m c 2 t) u r e).trans ?_
  have hG : ((cfg0.win 4).blk t).view.read (Elt Ideal) (result m c) (ix3 u r e) = result m c (ix3 (bn t) (bs t r) e) := by
    show result m c (((cfg0.win 4).blk t).view.emb (ix3 u r e)) = _
    obtain ⟨-, -, -, -, -, -, -, -, -, -, -, -, -, e2⟩ := idx_facts t
    have hu : u.val = 0 := by omega
    refine congrArg _ (funext fun a => Fin.ext ?_)
    match a with
    | ⟨0, _⟩ => show win0_4.index t (0 : Fin 3) * 1 + 1 * u.val = win0_4.index t (0 : Fin 3); omega
    | ⟨1, _⟩ => show win0_4.index t (1 : Fin 3) * 512 + 1 * r.val = win0_4.index t (1 : Fin 3) * 512 + r.val; omega
    | ⟨2, _⟩ => show win0_4.index t (2 : Fin 3) * 64 + 1 * e.val = e.val; omega
  rw [hG]
  unfold result
  rw [Attn.attention_ix3]
  unfold Attn.at3
  simp only [q_read, k_read, v_read, mask_read]

/-- An index of the array is in point `t`'s block iff each coordinate is in the block's range on its axis. -/
theorem mem_blk (t : Fin cfg0.N) (i : S16x4096x64.Idx) :
    i ∈ ((cfg0.win 4).blk t).view.set ↔ ∀ a : Fin 3, win0_4.index t a * S1x512x64.size a ≤ (i a).val
      ∧ (i a).val < win0_4.index t a * S1x512x64.size a + S1x512x64.size a := by
  show i ∈ ((View.whole main_v2).slice (win0_4.rect t)).set ↔ _
  rw [View.set_slice_whole, Rect.mem_set_unit]
  exact Iff.rfl

/-- THE COVER: the index `(n, s, e)` is in the block of the point whose output block is `(n, s / 512, 0)`. -/
theorem cover (i : S16x4096x64.Idx) :
    ∃ t : Fin cfg0.N, (cfg0.win 4).flush t = true ∧ i ∈ ((cfg0.win 4).blk t).view.set := by
  have hi0 : (i 0).val < 16 := (i 0).isLt
  have hi1 : (i 1).val < 4096 := (i 1).isLt
  have hi2 : (i 2).val < 64 := (i 2).isLt
  obtain ⟨t, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 64 ≤ (i 2).val ∧ (i 2).val < win0_4.index t (2 : Fin 3) * 64 + 64; omega

/-- THE ARRAY after the run is the attention array of the arguments. -/
theorem final (c : Dev nD) : (dats m 0 c).arrAt 4 cfg0.N = result m c :=
  (dats m 0 c).arrAt_eq_of_cover 4 (result m c) (fun t _ => flushed_eq m c t) cover

/-- The kernel's run: the result array ends at the attention array of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.LibHostMax3.lean ====
/-
  The maximum of a rank-3 array along its last axis, in a host program, read at an index given by coordinates.

  A `stablehlo.reduce` whose body is `maximum`, over the last axis of an `[a, b, c]` array, leaves an `[a, b]` array; its
  entry at `(p, r)` is the fold of `max`, from the initial value's one element, over the `c` entries `x (p, r, k)`. Since
  `max` is commutative and associative the order of the fold does not matter, and the fold over the indices that drop to
  `(p, r)` is the fold over the last coordinate `k` with `(p, r)` held fixed.
-/
import Idealize.ShloMosaic.Lib.ValueLayout
import Idealize.ShloMosaic.PureOps.Ideal.Laws

noncomputable section

open scoped BigOperators

namespace Idealize.ShloMosaic.ValueIdx

open Idealize.ShloMosaic

/-- The host's maximum of an `[a, b, c]` array along its last axis, read at `(p, r)`: the fold of `max`, from the initial
    value, over the entries `x (p, r, k)`, `k` running over the last axis, in any order. -/
theorem hostReduce_max_last3_apply {a b c : ℕ} {φ : FTy} {u : Shape} (x : FVec Ideal ⟨3, ![a, b, c]⟩ φ)
    (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (r : Fin b) :
    Host.reduce (FloatOps.maximumf (F := Ideal) (φ := φ)) x init h' hu (ix2 p r)
      = (Finset.univ : Finset (Fin c)).fold max (init (Shape.Idx.first hu)) (fun k => x (ix3 p r k)) := by
  refine (Host.reduce_eq_fold_single (FloatOps.maximumf (F := Ideal) (φ := φ)) x init h' h hu (ix2 p r)).trans ?_
  refine congrArg (Finset.fold _ _ · _) (funext fun k => congrArg x (funext fun ax => Fin.ext ?_))
  match ax with
  | ⟨0, _⟩ => rfl
  | ⟨1, _⟩ => rfl
  | ⟨2, _⟩ => rfl

/-- The host's sum of an `[a, b, c]` array along its last axis, at the ideal values and read at `(p, r)`: the initial
    value plus the sum of the entries `x (p, r, k)`. -/
theorem hostReduceAdd_last3_apply {a b c : ℕ} {φ : FTy} {u : Shape} (x : FVec Ideal ⟨3, ![a, b, c]⟩ φ)
    (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (r : Fin b) :
    Host.reduceAdd x init h' hu (ix2 p r) = init (Shape.Idx.first hu) + ∑ k : Fin c, x (ix3 p r k) := by
  simp only [Host.reduceAdd, Ideal.hostReduceAdd_def]
  rw [Ideal.hostReduceAdd_single h' h]
  refine congrArg (_ + ·) (Finset.sum_congr rfl fun k _ => congrArg x (funext fun ax => Fin.ext ?_))
  match ax with
  | ⟨0, _⟩ => rfl
  | ⟨1, _⟩ => rfl
  | ⟨2, _⟩ => rfl

end Idealize.ShloMosaic.ValueIdx

end
-- ==== Proof.RefRow.lean ====
/-
  The reference program read row by row.

  The reference scales the queries by `1/8`, contracts them with the keys batch by batch, adds the mask (the same for
  every batch), takes a softmax along the last axis — the row maximum folded from −∞ and, once more, compared with −∞;
  the exponentials of the shifted scores; their sum from `0`; the quotient — and contracts the weights with the values.
  Read at `(n, s, ·)` each stage is the matching stage of `Attn.row` for query row `s` of batch `n`: the second
  comparison with −∞ changes nothing, since a fold of max from −∞ is already at least −∞, and the sum's initial `0`
  adds nothing.
-/
import proofs.«145443_j4432406249990_2_alg».proof.Proof.Gen.ReferenceIdeal.Read
import proofs.«145443_j4432406249990_2_alg».proof.Proof.AttnSpec
import proofs.«145443_j4432406249990_2_alg».proof.Proof.LibHostMax3

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 x1 x2 : (⟨S16x4096x64, .f32⟩ : BufTy).Contents (Elt Ideal)) (x3 : (⟨S4096x4096, .f32⟩ : BufTy).Contents (Elt Ideal))

/-- The scores of batch `n`, query row `s`, as the specification writes them. -/
abbrev rowScores (n : Fin 16) (s : Fin 4096) : Fin 4096 → EReal :=
  Attn.scores Attn.scale (fun d : Fin 64 => x0 (ix3 n s d)) (fun (t : Fin 4096) (d : Fin 64) => x1 (ix3 n t d))
    (fun t : Fin 4096 => x3 (ix2 s t))

/-- The masked scores at `(n, s, t)`. -/
theorem scores_apply (n : Fin 16) (s : Fin 4096) (t : Fin 4096) :
    val_main_v5 (F := Ideal) x0 x1 x3 (ix3 n s t) = rowScores x0 x1 x3 n s t := by
  rw [val_main_v5_apply, val_main_v2_apply, val_main_v4_apply, val_main_v3_apply]
  unfold rowScores Attn.scores
  refine congrArg₂ (· + ·) (Finset.sum_congr rfl fun d _ => ?_) (congrArg x3 (funext fun a => Fin.ext ?_))
  · have el : lidx_main_v2 (ix3 n s t) d = ix3 n s d := funext fun a => Fin.ext (by
      match a with | ⟨0, _⟩ => rfl | ⟨1, _⟩ => rfl | ⟨2, _⟩ => rfl)
    have er : ridx_main_v2 (ix3 n s t) d = ix3 n t d := funext fun a => Fin.ext (by
      match a with | ⟨0, _⟩ => rfl | ⟨1, _⟩ => rfl | ⟨2, _⟩ => rfl)
    rw [el, er, val_main_v1_apply, val_main_v0_apply, val_main_cst_apply]
    rfl
  · match a with | ⟨0, _⟩ => rfl | ⟨1, _⟩ => rfl

/-- The row maximum at `(n, s)`: the fold of max from −∞ over the row's scores. -/
theorem top_apply (n : Fin 16) (s : Fin 4096) :
    val_main_v8 (F := Ideal) x0 x1 x3 (ix2 n s)
      = (Finset.univ : Finset (Fin 4096)).fold max Attn.negInf (rowScores x0 x1 x3 n s) := by
  rw [val_main_v8_apply, val_main_v7_apply, val_main_cst_1_apply]
  unfold val_main_v6
  rw [hostReduce_max_last3_apply _ _ reducesTo_S16x4096x4096_S16x4096_d2 (by decide) h_S_ n s]
  rw [show (fun k : Fin 4096 => val_main_v5 (F := Ideal) x0 x1 x3 (ix3 n s k)) = rowScores x0 x1 x3 n s from
    funext fun k => scores_apply x0 x1 x3 n s k]
  exact max_eq_right ((Finset.le_fold_max _).mpr (Or.inl le_rfl))

/-- The shifted exponential at `(n, s, t)`. -/
theorem exp_apply (n : Fin 16) (s : Fin 4096) (t : Fin 4096) :
    val_main_v12 (F := Ideal) x0 x1 x3 (ix3 n s t)
      = Ideal.exp (rowScores x0 x1 x3 n s t
          - (Finset.univ : Finset (Fin 4096)).fold max Attn.negInf (rowScores x0 x1 x3 n s)) := by
  rw [val_main_v12_apply, val_main_v11_apply, val_main_v10_apply, val_main_v9_apply, scores_apply]
  have e : idx_main_v9 (idx_main_v10 (ix3 n s t)) = ix2 n s := funext fun a => Fin.ext (by
    match a with | ⟨0, _⟩ => rfl | ⟨1, _⟩ => rfl)
  rw [e, top_apply]
  rfl

/-- The softmax weight at `(n, s, t)`. -/
theorem weights_apply (n : Fin 16) (s : Fin 4096) (t : Fin 4096) :
    val_main_v16 (F := Ideal) x0 x1 x3 (ix3 n s t) = Attn.weights Attn.negInf (rowScores x0 x1 x3 n s) t := by
  rw [val_main_v16_apply, val_main_v15_apply, val_main_v14_apply, val_main_v13_apply, val_main_cst_2_apply, exp_apply]
  have e : idx_main_v14 (idx_main_v15 (ix3 n s t)) = ix2 n s := funext fun a => Fin.ext (by
    match a with | ⟨0, _⟩ => rfl | ⟨1, _⟩ => rfl)
  rw [e]
  unfold Attn.weights
  show Ideal.div _ (Ideal.ofBits .f32 0x00000000#32 + _) = _
  rw [Ideal.ofBits_zero_f32, zero_add]
  refine congrArg (Ideal.div _) (Finset.sum_congr rfl fun k _ => ?_)
  have ek : idx_main_v13 (ix2 n s) k = ix3 n s k := funext fun a => Fin.ext (by
    match a with | ⟨0, _⟩ => rfl | ⟨1, _⟩ => rfl | ⟨2, _⟩ => rfl)
  rw [ek, exp_apply]

/-- THE REFERENCE'S RESULT is the attention array of its four arguments. -/
theorem result_eq : val_main_v17 (F := Ideal) x0 x1 x2 x3 = Attn.attention x0 x1 x2 x3 := by
  funext i
  obtain ⟨n, s, e, rfl⟩ : ∃ (n : Fin 16) (s : Fin 4096) (e : Fin 64), i = ix3 n s e := ⟨i 0, i 1, i 2, eq_ix3 i⟩
  rw [val_main_v17_apply, Attn.attention_ix3]
  unfold Attn.at3 Attn.row
  refine Finset.sum_congr rfl fun t _ => ?_
  have el : lidx_main_v17 (ix3 n s e) t = ix3 n s t := funext fun a => Fin.ext (by
    match a with | ⟨0, _⟩ => rfl | ⟨1, _⟩ => rfl | ⟨2, _⟩ => rfl)
  have er : ridx_main_v17 (ix3 n s e) t = ix3 n t e := funext fun a => Fin.ext (by
    match a with | ⟨0, _⟩ => rfl | ⟨1, _⟩ => rfl | ⟨2, _⟩ => rfl)
  rw [el, er, weights_apply]

end Cert.ReferenceIdeal.RefValue

end
-- ==== Proof.lean ====
/-
  Masked scaled-dot-product attention, `softmax(Q · 1/8 · Kᵀ + M) · V` over 16 batches of 4096 rows of width 64: a tiled
  kernel against the plain array program, equal over the extended reals.

  The kernel runs on an 8 × 16 grid; a grid point takes 512 query rows of one batch, that batch's keys and values and the
  matching 512 rows of the mask, and stores 512 rows of the output: the scores by a matrix product, the row maxima, the
  exponentials of the shifted scores, their row sums, the quotient, and the product with the values. The reference does
  the same on whole arrays with batched contractions. On the extended reals a change of float format is the identity, a
  matrix product into a zero accumulator and a batched contraction are the same finite sum, a lane maximum and the host's
  maximum are the same fold of max from −∞, and a lane sum and the host's sum from `0` are the same finite sum. So both
  programs compute, at batch `n`, row `s`, column `e`, the one term `Attn.row` of AttnSpec: KernelRow reads it off the
  kernel's payload for a row of a block, KernelArray carries the blocks to the whole array (each output row lies in exactly
  the block of the point for its batch and row tile, and depends on its own query and mask rows only), and RefRow reads it
  off the reference stage by stage. No law used needs the inputs finite: only commutativity of the folds and sums, the
  identity `max b (fold max b f) = fold max b f`, and `0 + x = x`. The frames are the generated ones; the idealized
  kernel is the printed kernel's own text, so `preserves` is `True`.
-/
import proofs.«145443_j4432406249990_2_alg».proof.Defs
import proofs.«145443_j4432406249990_2_alg».proof.Proof.Gen.Kernel
import proofs.«145443_j4432406249990_2_alg».proof.Proof.Gen.Kernel.Skeleton
import proofs.«145443_j4432406249990_2_alg».proof.Proof.Gen.Kernel.Launch
import proofs.«145443_j4432406249990_2_alg».proof.Proof.Gen.Kernel.Points
import proofs.«145443_j4432406249990_2_alg».proof.Proof.Gen.Kernel.Frame
import proofs.«145443_j4432406249990_2_alg».proof.Proof.Gen.KernelIdeal
import proofs.«145443_j4432406249990_2_alg».proof.Proof.Gen.KernelIdeal.Skeleton
import proofs.«145443_j4432406249990_2_alg».proof.Proof.Gen.KernelIdeal.Launch
import proofs.«145443_j4432406249990_2_alg».proof.Proof.Gen.KernelIdeal.Points
import proofs.«145443_j4432406249990_2_alg».proof.Proof.Gen.KernelIdeal.Frame
import proofs.«145443_j4432406249990_2_alg».proof.Proof.Gen.ReferenceIdeal
import proofs.«145443_j4432406249990_2_alg».proof.Proof.Gen.Pre_finite_inputs
import proofs.«145443_j4432406249990_2_alg».proof.Proof.Gen.KernelIdeal.Value
import proofs.«145443_j4432406249990_2_alg».proof.Proof.Gen.ReferenceIdeal.Run
import proofs.«145443_j4432406249990_2_alg».proof.Proof.Gen.ReferenceIdeal.Read
import proofs.«145443_j4432406249990_2_alg».proof.Proof.KernelArray
import proofs.«145443_j4432406249990_2_alg».proof.Proof.RefRow
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its result forgotten, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the idealized kernel: there is nothing to restate. -/
theorem preserves : Cert.preserves_Kernel_KernelIdeal := trivial

/-- Both programs end with the attention array of the arguments: the kernel's blocks cover it (KernelArray), and the
    reference's last stage is it index by index (RefRow), at arguments that agree. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v17_eq _ _ _ _).trans ?_
  rw [Cert.ReferenceIdeal.RefValue.result_eq, (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
